-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x256, .bf16⟩
  | .hbm, ⟨7, _⟩ => ⟨S8192x8192, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  iota_S1024x1024_d0_w32 : S1024x1024.Iotas .tc 32 [0]
  iota_S1024x1024_d1_w32 : S1024x1024.Iotas .tc 32 [1]
  shapeCasts_S1024x1024_S1024x1024 : S1024x1024.ShapeCasts S1024x1024
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_call0_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S256x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBRegion.lean ====
/-
  The distance kernel's region, first part: the buffers as the region finds them, the windows' blocks, the
  condition of the body's one branch (the tile is on the diagonal) in closed form over the 8 x 8 grid, and
  the body run once per case on whole staging buffers.
-/
import proofs.«140708_j38259568672963_2_alg».proof.Proof.Gen.Kernel.Launch
import proofs.«140708_j38259568672963_2_alg».proof.Proof.Gen.Kernel.Skeleton
import proofs.«140708_j38259568672963_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations
    (the squares, their row sums, the two keepdims copies of the sums, the narrowed copy of the input). -/
abbrev V (c : Dev nD) (b : Ref sig .tc) : Buf (Elt F) ((c : Thread nD τ).loc b) :=
  StableHlo.after hostOps0 (fun b => m (c, b)) (Proc.devRef .tc b)

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub (by simp only [List.Forall]; repeat' constructor) fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch -/

/-- The body's branch is taken when the two grid coordinates are equal: the tile lies on the diagonal. -/
abbrev onDiag (i : grid0.Coords) : Prop :=
  (Scalar.cmpi .ne (Scalar.extui (Scalar.cmpi .eq (BitVec.ofNat 32 (i 0).val) (BitVec.ofNat 32 (i 1).val))) 0#32) = 1#1

/-- Over the 64 points in row-major order that is: the point's quotient and remainder by 8 agree. -/
theorem onDiag_iff : ∀ t : Fin cfg0.N, onDiag (grid0.coords t) ↔ t.val / 8 = t.val % 8 :=
  (by decide +kernel : ∀ t : Fin grid0.N, onDiag (grid0.coords t) ↔ t.val / 8 = t.val % 8)

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)

/-- One staging buffer of the output window, through which its contents are stated. -/
abbrev VO : View sig .tc .vmem S1024x1024 .f32 := (Memref.whole cc0_stg4_0 : Memref sig .tc .vmem S1024x1024 .f32).view

end Cert.Kernel.Hand

end
-- ==== Proof.KBRunOn.lean ====
/-
  The distance kernel's body on whole staging buffers, in the case of a tile on the diagonal: after the
  store of the tile of distances the body reads the tile back and stores it again with zero where the local
  row equals the local column.
-/
import proofs.«140708_j38259568672963_2_alg».proof.Proof.KBRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A tile ON the diagonal: the body reads its four inputs, stores the tile of distances, reads it back and stores it with the diagonal zeroed. The list is what its stores leave in the output buffer, last first. -/
noncomputable def bodyOn (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : onDiag i)
    (x0 : Vec F S1024x256 .bf16) (x1 : Vec F S1024x256 .bf16) (x2 : Vec F S1024x1 .f32) (x3 : Vec F S1x1024 .f32) :
    { L : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__eucl_kernel i arg2 harg2 arg3 harg3 arg4 harg4 arg5 harg5 arg6 harg6) K } := by
  refine ⟨?_, fun E K => ?run⟩
  case run =>
    simp only [cc0__eucl_kernel_eq_skeleton]; unfold cc0__eucl_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBRunOff.lean ====
/-
  The distance kernel's body on whole staging buffers, in the case of a tile off the diagonal: the four input
  buffers are read and kept, and the output buffer ends with one store of the whole tile.
-/
import proofs.«140708_j38259568672963_2_alg».proof.Proof.KBRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A tile OFF the diagonal: the body reads its four inputs, stores the tile of distances, and skips the branch. The list is what its stores leave in the output buffer, last first. -/
noncomputable def bodyOff (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : ¬onDiag i)
    (x0 : Vec F S1024x256 .bf16) (x1 : Vec F S1024x256 .bf16) (x2 : Vec F S1024x1 .f32) (x3 : Vec F S1x1024 .f32) :
    { L : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__eucl_kernel i arg2 harg2 arg3 harg3 arg4 harg4 arg5 harg5 arg6 harg6) K } := by
  refine ⟨?_, fun E K => ?run⟩
  case run =>
    simp only [cc0__eucl_kernel_eq_skeleton]; unfold cc0__eucl_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBFrame.lean ====
/-
  The distance kernel's region, second part: what the body leaves in the output tile in each case, the
  pipeline's proof data, the body obligation at every grid point, and the run of @main. Two input windows
  (the row block and the column block of the narrowed input) read ONE array: the pipeline holds that array
  once, and each of the two windows gets half of its share.
-/
import proofs.«140708_j38259568672963_2_alg».proof.Proof.KBRunOn
import proofs.«140708_j38259568672963_2_alg».proof.Proof.KBRunOff
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output tile -/

/-- Off the diagonal the body's one store covers the tile. -/
theorem coverOff (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : ¬onDiag i) (x0 : Vec F S1024x256 .bf16) (x1 : Vec F S1024x256 .bf16) (x2 : Vec F S1024x1 .f32) (x3 : Vec F S1x1024 .f32) (y : S1024x1024.Idx) :
    ∃ pc ∈ (bodyOff c i arg2 harg2 arg3 harg3 arg4 harg4 arg5 harg5 arg6 harg6 hc0 x0 x1 x2 x3).1, y ∈ pc.1.set :=
  View.cover_of_tiledL (bodyOff c i arg2 harg2 arg3 harg3 arg4 harg4 arg5 harg5 arg6 harg6 hc0 x0 x1 x2 x3).1 S1024x1024.size (by sl_kernel_rfl) y

/-- What the body leaves in the output tile off the diagonal: its stores read back. -/
def outOff (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : ¬onDiag i) (x0 : Vec F S1024x256 .bf16) (x1 : Vec F S1024x256 .bf16) (x2 : Vec F S1024x1 .f32) (x3 : Vec F S1x1024 .f32) : Vec F S1024x1024 .f32 :=
  VO.read (Elt F) (VO.writes (Elt F) VO.junk (bodyOff c i arg2 harg2 arg3 harg3 arg4 harg4 arg5 harg5 arg6 harg6 hc0 x0 x1 x2 x3).1)

/-- On the diagonal the body's two stores cover the tile (each does). -/
theorem coverOn (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : onDiag i) (x0 : Vec F S1024x256 .bf16) (x1 : Vec F S1024x256 .bf16) (x2 : Vec F S1024x1 .f32) (x3 : Vec F S1x1024 .f32) (y : S1024x1024.Idx) :
    ∃ pc ∈ (bodyOn c i arg2 harg2 arg3 harg3 arg4 harg4 arg5 harg5 arg6 harg6 hc0 x0 x1 x2 x3).1, y ∈ pc.1.set :=
  View.cover_of_tiledL (bodyOn c i arg2 harg2 arg3 harg3 arg4 harg4 arg5 harg5 arg6 harg6 hc0 x0 x1 x2 x3).1 S1024x1024.size (by sl_kernel_rfl) y

/-- What the body leaves in the output tile on the diagonal: its stores read back. -/
def outOn (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : onDiag i) (x0 : Vec F S1024x256 .bf16) (x1 : Vec F S1024x256 .bf16) (x2 : Vec F S1024x1 .f32) (x3 : Vec F S1x1024 .f32) : Vec F S1024x1024 .f32 :=
  VO.read (Elt F) (VO.writes (Elt F) VO.junk (bodyOn c i arg2 harg2 arg3 harg3 arg4 harg4 arg5 harg5 arg6 harg6 hc0 x0 x1 x2 x3).1)

/-- What the output's staging buffer holds after the body at point `t`: the case the point is in, run at the
    point's memrefs and input blocks. Nothing is carried from one point to the next. -/
def outAt (c : Dev nD) (t : Fin cfg0.N) : Vec F S1024x1024 .f32 :=
  if h : t.val / 8 = t.val % 8 then
    outOn c (grid0.coords t) (ms0 t) (hs0 t) (ms1 t) (hs1 t) (ms2 t) (hs2 t) (ms3 t) (hs3 t) (ms4 t) (hs4 t) ((onDiag_iff t).mpr h) (iblk m c 0 t) (iblk m c 1 t) (iblk m c 2 t) (iblk m c 3 t)
  else
    outOff c (grid0.coords t) (ms0 t) (hs0 t) (ms1 t) (hs1 t) (ms2 t) (hs2 t) (ms3 t) (hs3 t) (ms4 t) (hs4 t) (fun h' => h ((onDiag_iff t).mp h')) (iblk m c 0 t) (iblk m c 1 t) (iblk m c 2 t) (iblk m c 3 t)

/-! ## The pipeline's proof data -/

/-- The proof data on core `c`: the arrays as the region finds them; after the body each input's buffer at its
    block and the output's at `outAt`; the invariant the core's scoped buffers that are no staging buffer;
    nothing owed; the array the row-block and column-block windows share dealt to them in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not: unfetched, the
    block index has not moved since the point before. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' memrefs hold their blocks; the closed form says which case the point is
    in; that case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val / 8 = t.val % 8
  · rw [show outAt m c t = outOn c (grid0.coords t) (ms0 t) (hs0 t) (ms1 t) (hs1 t) (ms2 t) (hs2 t) (ms3 t) (hs3 t) (ms4 t) (hs4 t) ((onDiag_iff t).mpr h0) (iblk m c 0 t) (iblk m c 1 t) (iblk m c 2 t) (iblk m c 3 t) from dif_pos h0]
    unfold outOn
    iintro ⟨HΦ, Ho, ⟨%d0, H0⟩, ⟨%d1, H1⟩, ⟨%d2, H2⟩, ⟨%d3, H3⟩, ⟨%d4, H4⟩⟩
    iapply ((bodyOn c (grid0.coords t) _ _ _ _ _ _ _ _ _ _ ((onDiag_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOn c _ _ _ _ _ _ _ _ _ _ _ _ _ _ _ _)
  · rw [show outAt m c t = outOff c (grid0.coords t) (ms0 t) (hs0 t) (ms1 t) (hs1 t) (ms2 t) (hs2 t) (ms3 t) (hs3 t) (ms4 t) (hs4 t) (fun h' => h0 ((onDiag_iff t).mp h')) (iblk m c 0 t) (iblk m c 1 t) (iblk m c 2 t) (iblk m c 3 t) from dif_neg h0]
    unfold outOff
    iintro ⟨HΦ, Ho, ⟨%d0, H0⟩, ⟨%d1, H1⟩, ⟨%d2, H2⟩, ⟨%d3, H3⟩, ⟨%d4, H4⟩⟩
    iapply ((bodyOff c (grid0.coords t) _ _ _ _ _ _ _ _ _ _ (fun h' => h0 ((onDiag_iff t).mp h')) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOff c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBLaunch.lean ====
/-
  The distance kernel's region, third part: the launch. The four buffers behind the five windows' arrays,
  each held whole, make the pipeline's arrays: the narrowed input, read by two windows, is split in two half
  shares; the others go to their one window whole. Then the run of @main, and the frame.
-/
import proofs.«140708_j38259568672963_2_alg».proof.Proof.KBFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays from the buffers behind them -/

/-- The four distinct buffers behind the five windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_call0_v4) ↦{fullShare} V m c main_call0_v4) ∗ (((c : Thread nD τ).loc main_call0_v2) ↦{fullShare} V m c main_call0_v2)
          ∗ (((c : Thread nD τ).loc main_call0_v3) ↦{fullShare} V m c main_call0_v3) ∗ (((c : Thread nD τ).loc main_v0) ↦{fullShare} V m c main_v0)) :=
  bigSep_eq_bigSepL_of_eq [main_call0_v4, main_call0_v2, main_call0_v3, main_v0] (by decide) (by decide) _

set_option maxHeartbeats 800000 in
/-- The buffers behind the windows' arrays, whole at the region-entry contents, are the pipeline's arrays at
    entry: the one array two input windows read is dealt to them in halves. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 4).set_eq_univ]
  iintro ⟨H4, H2, H3, H0⟩
  ihave H4' := (pointsTo_share (PosShare.mem_left_op_right fullShare)).1 $$ H4
  icases H4' with ⟨Ha, Hb⟩
  isplitl [Ha]; · iexact Ha
  isplitl [Hb]; · iexact Hb
  isplitl [H2]; · iexact H2
  isplitl [H3]; · iexact H3
  iexact H0

/-- Nothing but the core's other scoped buffers goes into the invariant, and comes out of it. -/
theorem inv_in (c : Dev nD) :
    iprop((emp : sProp 𝕄) ∗ Pipeline.scopedRest (Ix := Unit) (Name := ℕ) (U := UR sig nD τ) (Lvl := ℕ) (Val := Elt F) spec0 c) ⊢ (dats m 0 c).Φ 0 := by
  show iprop((emp : sProp 𝕄) ∗ Pipeline.scopedRest (Ix := Unit) (Name := ℕ) (U := UR sig nD τ) (Lvl := ℕ) (Val := Elt F) spec0 c)
    ⊢ Pipeline.scopedRest (Ix := Unit) (Name := ℕ) (U := UR sig nD τ) (Lvl := ℕ) (Val := Elt F) spec0 c
  iintro ⟨-, H⟩; iexact H
theorem inv_out (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  show Pipeline.scopedRest (Ix := Unit) (Name := ℕ) (U := UR sig nD τ) (Lvl := ℕ) (Val := Elt F) spec0 c
    ⊢ iprop((emp : sProp 𝕄) ∗ Pipeline.scopedRest (Ix := Unit) (Name := ℕ) (U := UR sig nD τ) (Lvl := ℕ) (Val := Elt F) spec0 c)
  iintro H; isplitr
  · iempintro
  · iexact H
theorem rest_split (c : Dev nD) :
    (Pipeline.unscopedRest (Ix := Unit) (Name := ℕ) (U := UR sig nD τ) (Lvl := ℕ) spec0 c (V m c) : sProp 𝕄)
      ⊢ iprop((emp : sProp 𝕄) ∗ Pipeline.unscopedRest (Ix := Unit) (Name := ℕ) (U := UR sig nD τ) (Lvl := ℕ) spec0 c (V m c)) := by
  iintro H; isplitr
  · iempintro
  · iexact H

/-! ## The run -/

set_option backward.isDefEq.respectTransparency.types false in
/-- At the compiled mesh, for any values, from any memory with zero counters: every weakly fair execution of
    @main terminates, and in every final state each window's array holds what the write-backs left
    (`Dat.arrAt` at the last point) and every other unscoped buffer what the region found. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := rest_split m) (hin := inv_in m) (hout := inv_out m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The argument array is no window's array, so the region leaves it as found; and the region found it as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans (V_main_arg0 m c)) (run_main m ρ)

end Cert.Kernel.Hand

end
-- ==== Proof.KIRegion.lean ====
/-
  The distance kernel's region, first part: the buffers as the region finds them, the windows' blocks, the
  condition of the body's one branch (the tile is on the diagonal) in closed form over the 8 x 8 grid, and
  the body run once per case on whole staging buffers.
-/
import proofs.«140708_j38259568672963_2_alg».proof.Proof.Gen.KernelIdeal.Launch
import proofs.«140708_j38259568672963_2_alg».proof.Proof.Gen.KernelIdeal.Skeleton
import proofs.«140708_j38259568672963_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host operations
    (the squares, their row sums, the two keepdims copies of the sums, the narrowed copy of the input). -/
abbrev V (c : Dev nD) (b : Ref sig .tc) : Buf (Elt F) ((c : Thread nD τ).loc b) :=
  StableHlo.after hostOps0 (fun b => m (c, b)) (Proc.devRef .tc b)

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub (by simp only [List.Forall]; repeat' constructor) fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The branch -/

/-- The body's branch is taken when the two grid coordinates are equal: the tile lies on the diagonal. -/
abbrev onDiag (i : grid0.Coords) : Prop :=
  (Scalar.cmpi .ne (Scalar.extui (Scalar.cmpi .eq (BitVec.ofNat 32 (i 0).val) (BitVec.ofNat 32 (i 1).val))) 0#32) = 1#1

/-- Over the 64 points in row-major order that is: the point's quotient and remainder by 8 agree. -/
theorem onDiag_iff : ∀ t : Fin cfg0.N, onDiag (grid0.coords t) ↔ t.val / 8 = t.val % 8 :=
  (by decide +kernel : ∀ t : Fin grid0.N, onDiag (grid0.coords t) ↔ t.val / 8 = t.val % 8)

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)

/-- One staging buffer of the output window, through which its contents are stated. -/
abbrev VO : View sig .tc .vmem S1024x1024 .f32 := (Memref.whole cc0_stg4_0 : Memref sig .tc .vmem S1024x1024 .f32).view

end Cert.KernelIdeal.Hand

end
-- ==== Proof.KIRunOn.lean ====
/-
  The distance kernel's body on whole staging buffers, in the case of a tile on the diagonal: after the
  store of the tile of distances the body reads the tile back and stores it again with zero where the local
  row equals the local column.
-/
import proofs.«140708_j38259568672963_2_alg».proof.Proof.KIRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A tile ON the diagonal: the body reads its four inputs, stores the tile of distances, reads it back and stores it with the diagonal zeroed. The list is what its stores leave in the output buffer, last first. -/
noncomputable def bodyOn (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : onDiag i)
    (x0 : Vec F S1024x256 .bf16) (x1 : Vec F S1024x256 .bf16) (x2 : Vec F S1024x1 .f32) (x3 : Vec F S1x1024 .f32) :
    { L : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__eucl_kernel i arg2 harg2 arg3 harg3 arg4 harg4 arg5 harg5 arg6 harg6) K } := by
  refine ⟨?_, fun E K => ?run⟩
  case run =>
    simp only [cc0__eucl_kernel_eq_skeleton]; unfold cc0__eucl_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIRunOff.lean ====
/-
  The distance kernel's body on whole staging buffers, in the case of a tile off the diagonal: the four input
  buffers are read and kept, and the output buffer ends with one store of the whole tile.
-/
import proofs.«140708_j38259568672963_2_alg».proof.Proof.KIRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A tile OFF the diagonal: the body reads its four inputs, stores the tile of distances, and skips the branch. The list is what its stores leave in the output buffer, last first. -/
noncomputable def bodyOff (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : ¬onDiag i)
    (x0 : Vec F S1024x256 .bf16) (x1 : Vec F S1024x256 .bf16) (x2 : Vec F S1024x1 .f32) (x3 : Vec F S1x1024 .f32) :
    { L : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__eucl_kernel i arg2 harg2 arg3 harg3 arg4 harg4 arg5 harg5 arg6 harg6) K } := by
  refine ⟨?_, fun E K => ?run⟩
  case run =>
    simp only [cc0__eucl_kernel_eq_skeleton]; unfold cc0__eucl_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIFrame.lean ====
/-
  The distance kernel's region, second part: what the body leaves in the output tile in each case, the
  pipeline's proof data, the body obligation at every grid point, and the run of @main. Two input windows
  (the row block and the column block of the narrowed input) read ONE array: the pipeline holds that array
  once, and each of the two windows gets half of its share.
-/
import proofs.«140708_j38259568672963_2_alg».proof.Proof.KIRunOn
import proofs.«140708_j38259568672963_2_alg».proof.Proof.KIRunOff
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output tile -/

/-- Off the diagonal the body's one store covers the tile. -/
theorem coverOff (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : ¬onDiag i) (x0 : Vec F S1024x256 .bf16) (x1 : Vec F S1024x256 .bf16) (x2 : Vec F S1024x1 .f32) (x3 : Vec F S1x1024 .f32) (y : S1024x1024.Idx) :
    ∃ pc ∈ (bodyOff c i arg2 harg2 arg3 harg3 arg4 harg4 arg5 harg5 arg6 harg6 hc0 x0 x1 x2 x3).1, y ∈ pc.1.set :=
  View.cover_of_tiledL (bodyOff c i arg2 harg2 arg3 harg3 arg4 harg4 arg5 harg5 arg6 harg6 hc0 x0 x1 x2 x3).1 S1024x1024.size (by sl_kernel_rfl) y

/-- What the body leaves in the output tile off the diagonal: its stores read back. -/
def outOff (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : ¬onDiag i) (x0 : Vec F S1024x256 .bf16) (x1 : Vec F S1024x256 .bf16) (x2 : Vec F S1024x1 .f32) (x3 : Vec F S1x1024 .f32) : Vec F S1024x1024 .f32 :=
  VO.read (Elt F) (VO.writes (Elt F) VO.junk (bodyOff c i arg2 harg2 arg3 harg3 arg4 harg4 arg5 harg5 arg6 harg6 hc0 x0 x1 x2 x3).1)

/-- On the diagonal the body's two stores cover the tile (each does). -/
theorem coverOn (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : onDiag i) (x0 : Vec F S1024x256 .bf16) (x1 : Vec F S1024x256 .bf16) (x2 : Vec F S1024x1 .f32) (x3 : Vec F S1x1024 .f32) (y : S1024x1024.Idx) :
    ∃ pc ∈ (bodyOn c i arg2 harg2 arg3 harg3 arg4 harg4 arg5 harg5 arg6 harg6 hc0 x0 x1 x2 x3).1, y ∈ pc.1.set :=
  View.cover_of_tiledL (bodyOn c i arg2 harg2 arg3 harg3 arg4 harg4 arg5 harg5 arg6 harg6 hc0 x0 x1 x2 x3).1 S1024x1024.size (by sl_kernel_rfl) y

/-- What the body leaves in the output tile on the diagonal: its stores read back. -/
def outOn (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : onDiag i) (x0 : Vec F S1024x256 .bf16) (x1 : Vec F S1024x256 .bf16) (x2 : Vec F S1024x1 .f32) (x3 : Vec F S1x1024 .f32) : Vec F S1024x1024 .f32 :=
  VO.read (Elt F) (VO.writes (Elt F) VO.junk (bodyOn c i arg2 harg2 arg3 harg3 arg4 harg4 arg5 harg5 arg6 harg6 hc0 x0 x1 x2 x3).1)

/-- What the output's staging buffer holds after the body at point `t`: the case the point is in, run at the
    point's memrefs and input blocks. Nothing is carried from one point to the next. -/
def outAt (c : Dev nD) (t : Fin cfg0.N) : Vec F S1024x1024 .f32 :=
  if h : t.val / 8 = t.val % 8 then
    outOn c (grid0.coords t) (ms0 t) (hs0 t) (ms1 t) (hs1 t) (ms2 t) (hs2 t) (ms3 t) (hs3 t) (ms4 t) (hs4 t) ((onDiag_iff t).mpr h) (iblk m c 0 t) (iblk m c 1 t) (iblk m c 2 t) (iblk m c 3 t)
  else
    outOff c (grid0.coords t) (ms0 t) (hs0 t) (ms1 t) (hs1 t) (ms2 t) (hs2 t) (ms3 t) (hs3 t) (ms4 t) (hs4 t) (fun h' => h ((onDiag_iff t).mp h')) (iblk m c 0 t) (iblk m c 1 t) (iblk m c 2 t) (iblk m c 3 t)

/-! ## The pipeline's proof data -/

/-- The proof data on core `c`: the arrays as the region finds them; after the body each input's buffer at its
    block and the output's at `outAt`; the invariant the core's scoped buffers that are no staging buffer;
    nothing owed; the array the row-block and column-block windows share dealt to them in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not: unfetched, the
    block index has not moved since the point before. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' memrefs hold their blocks; the closed form says which case the point is
    in; that case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val / 8 = t.val % 8
  · rw [show outAt m c t = outOn c (grid0.coords t) (ms0 t) (hs0 t) (ms1 t) (hs1 t) (ms2 t) (hs2 t) (ms3 t) (hs3 t) (ms4 t) (hs4 t) ((onDiag_iff t).mpr h0) (iblk m c 0 t) (iblk m c 1 t) (iblk m c 2 t) (iblk m c 3 t) from dif_pos h0]
    unfold outOn
    iintro ⟨HΦ, Ho, ⟨%d0, H0⟩, ⟨%d1, H1⟩, ⟨%d2, H2⟩, ⟨%d3, H3⟩, ⟨%d4, H4⟩⟩
    iapply ((bodyOn c (grid0.coords t) _ _ _ _ _ _ _ _ _ _ ((onDiag_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOn c _ _ _ _ _ _ _ _ _ _ _ _ _ _ _ _)
  · rw [show outAt m c t = outOff c (grid0.coords t) (ms0 t) (hs0 t) (ms1 t) (hs1 t) (ms2 t) (hs2 t) (ms3 t) (hs3 t) (ms4 t) (hs4 t) (fun h' => h0 ((onDiag_iff t).mp h')) (iblk m c 0 t) (iblk m c 1 t) (iblk m c 2 t) (iblk m c 3 t) from dif_neg h0]
    unfold outOff
    iintro ⟨HΦ, Ho, ⟨%d0, H0⟩, ⟨%d1, H1⟩, ⟨%d2, H2⟩, ⟨%d3, H3⟩, ⟨%d4, H4⟩⟩
    iapply ((bodyOff c (grid0.coords t) _ _ _ _ _ _ _ _ _ _ (fun h' => h0 ((onDiag_iff t).mp h')) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOff c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The distance kernel's region, third part: the launch. The four buffers behind the five windows' arrays,
  each held whole, make the pipeline's arrays: the narrowed input, read by two windows, is split in two half
  shares; the others go to their one window whole. Then the run of @main, and the frame.
-/
import proofs.«140708_j38259568672963_2_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays from the buffers behind them -/

/-- The four distinct buffers behind the five windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_call0_v4) ↦{fullShare} V m c main_call0_v4) ∗ (((c : Thread nD τ).loc main_call0_v2) ↦{fullShare} V m c main_call0_v2)
          ∗ (((c : Thread nD τ).loc main_call0_v3) ↦{fullShare} V m c main_call0_v3) ∗ (((c : Thread nD τ).loc main_v0) ↦{fullShare} V m c main_v0)) :=
  bigSep_eq_bigSepL_of_eq [main_call0_v4, main_call0_v2, main_call0_v3, main_v0] (by decide) (by decide) _

set_option maxHeartbeats 800000 in
/-- The buffers behind the windows' arrays, whole at the region-entry contents, are the pipeline's arrays at
    entry: the one array two input windows read is dealt to them in halves. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 4).set_eq_univ]
  iintro ⟨H4, H2, H3, H0⟩
  ihave H4' := (pointsTo_share (PosShare.mem_left_op_right fullShare)).1 $$ H4
  icases H4' with ⟨Ha, Hb⟩
  isplitl [Ha]; · iexact Ha
  isplitl [Hb]; · iexact Hb
  isplitl [H2]; · iexact H2
  isplitl [H3]; · iexact H3
  iexact H0

/-- Nothing but the core's other scoped buffers goes into the invariant, and comes out of it. -/
theorem inv_in (c : Dev nD) :
    iprop((emp : sProp 𝕄) ∗ Pipeline.scopedRest (Ix := Unit) (Name := ℕ) (U := UR sig nD τ) (Lvl := ℕ) (Val := Elt F) spec0 c) ⊢ (dats m 0 c).Φ 0 := by
  show iprop((emp : sProp 𝕄) ∗ Pipeline.scopedRest (Ix := Unit) (Name := ℕ) (U := UR sig nD τ) (Lvl := ℕ) (Val := Elt F) spec0 c)
    ⊢ Pipeline.scopedRest (Ix := Unit) (Name := ℕ) (U := UR sig nD τ) (Lvl := ℕ) (Val := Elt F) spec0 c
  iintro ⟨-, H⟩; iexact H
theorem inv_out (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  show Pipeline.scopedRest (Ix := Unit) (Name := ℕ) (U := UR sig nD τ) (Lvl := ℕ) (Val := Elt F) spec0 c
    ⊢ iprop((emp : sProp 𝕄) ∗ Pipeline.scopedRest (Ix := Unit) (Name := ℕ) (U := UR sig nD τ) (Lvl := ℕ) (Val := Elt F) spec0 c)
  iintro H; isplitr
  · iempintro
  · iexact H
theorem rest_split (c : Dev nD) :
    (Pipeline.unscopedRest (Ix := Unit) (Name := ℕ) (U := UR sig nD τ) (Lvl := ℕ) spec0 c (V m c) : sProp 𝕄)
      ⊢ iprop((emp : sProp 𝕄) ∗ Pipeline.unscopedRest (Ix := Unit) (Name := ℕ) (U := UR sig nD τ) (Lvl := ℕ) spec0 c (V m c)) := by
  iintro H; isplitr
  · iempintro
  · iexact H

/-! ## The run -/

set_option backward.isDefEq.respectTransparency.types false in
/-- At the compiled mesh, for any values, from any memory with zero counters: every weakly fair execution of
    @main terminates, and in every final state each window's array holds what the write-backs left
    (`Dat.arrAt` at the last point) and every other unscoped buffer what the region found. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := rest_split m) (hin := inv_in m) (hout := inv_out m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The frame -/

/-- No host operation before the region writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The argument array is no window's array, so the region leaves it as found; and the region found it as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans (V_main_arg0 m c)) (run_main m ρ)

end Cert.KernelIdeal.Hand

end
-- ==== Proof.KIOut.lean ====
/-
  What the distance kernel's body leaves in the output tile, through its two payloads: off the diagonal the
  tile of distances of the four input blocks; on the diagonal that tile with its own diagonal zeroed (the
  tile read back is the tile just stored).
-/
import proofs.«140708_j38259568672963_2_alg».proof.Proof.KIFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Off the diagonal the output tile is the first payload of the four blocks. -/
theorem outOff_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : ¬onDiag i) (x0 : Vec F S1024x256 .bf16) (x1 : Vec F S1024x256 .bf16) (x2 : Vec F S1024x1 .f32) (x3 : Vec F S1x1024 .f32) :
    outOff c i arg2 harg2 arg3 harg3 arg4 harg4 arg5 harg5 arg6 harg6 hc0 x0 x1 x2 x3 = k0_pay1 x0 x1 x2 x3 := by
  unfold outOff
  rw [View.read_writes_eq_canon _ _ _ (coverOff c i arg2 harg2 arg3 harg3 arg4 harg4 arg5 harg5 arg6 harg6 hc0 x0 x1 x2 x3)]
  unfold bodyOff
  dsimp only
  rw [View.canon_unit_zero hz]
  simp only [View.readAt_eq_ld, harg2.read_unread, harg3.read_unread, harg4.read_unread, harg5.read_unread,
    View.ld_unit_zero (S := S1024x256) hz, View.ld_unit_zero (S := S1024x1) hz, View.ld_unit_zero (S := S1x1024) hz]

/-- On the diagonal it is the second payload of the first: the last store covers the tile, and what it stores
    is computed from the tile read back, which is what the first store left. -/
theorem outOn_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .f32) (harg6 : arg6.IsWhole) (hc0 : onDiag i) (x0 : Vec F S1024x256 .bf16) (x1 : Vec F S1024x256 .bf16) (x2 : Vec F S1024x1 .f32) (x3 : Vec F S1x1024 .f32) :
    outOn c i arg2 harg2 arg3 harg3 arg4 harg4 arg5 harg5 arg6 harg6 hc0 x0 x1 x2 x3 = k0_pay2 (k0_pay1 x0 x1 x2 x3) := by
  unfold outOn
  rw [View.read_writes_eq_canon _ _ _ (coverOn c i arg2 harg2 arg3 harg3 arg4 harg4 arg5 harg5 arg6 harg6 hc0 x0 x1 x2 x3)]
  unfold bodyOn
  dsimp only
  sl_unfold_words
  rw [View.canon_cons_unit_zero hz, View.readCov_unit_zero _ hz]
  simp only [View.readAt_eq_ld, harg2.read_unread, harg3.read_unread, harg4.read_unread, harg5.read_unread,
    View.ld_unit_zero (S := S1024x256) hz, View.ld_unit_zero (S := S1024x1) hz, View.ld_unit_zero (S := S1x1024) hz]

/-- So at every point: by the case the point is in. -/
theorem outAt_eq (c : Dev nD) (t : Fin cfg0.N) :
    outAt m c t = if t.val / 8 = t.val % 8 then k0_pay2 (k0_pay1 (iblk m c 0 t) (iblk m c 1 t) (iblk m c 2 t) (iblk m c 3 t)) else k0_pay1 (iblk m c 0 t) (iblk m c 1 t) (iblk m c 2 t) (iblk m c 3 t) := by
  unfold outAt
  split
  · exact outOn_eq c _ _ _ _ _ _ _ _ _ _ _ _ _ _ _ _
  · exact outOff_eq c _ _ _ _ _ _ _ _ _ _ _ _ _ _ _ _

end Cert.KernelIdeal.Hand

end
-- ==== Proof.DistSpec.lean ====
/-
  The pairwise Euclidean distances of the rows of a matrix, index by index, over the extended reals:
      dist a i j = sqrt (max ((|a_i|^2 + |a_j|^2) - 2 * <a_i, a_j>, 0)),
  each squared norm a sum over the 256 columns started from the zero word, the inner product a sum over the
  columns. One program computes exactly this at every index; the other overwrites the entries with i = j by
  zero. The two agree when the matrix is finite: then |a_i|^2 + |a_i|^2 - 2 <a_i, a_i> is the real number 0,
  and the square root of max 0 0 is 0. (At an infinite row sum the subtraction is of infinities, which is
  why finiteness is used and not just assumed away.)
-/
import Idealize.ShloMosaic.PureOps.Ideal
import Idealize.ShloMosaic.Lib.ValueIdx

noncomputable section

namespace Cert.Dist

open Idealize.ShloMosaic Idealize.ShloMosaic.ValueIdx

/-- The matrix's shape and the result's. -/
abbrev SIn : Shape := ⟨2, ![8192, 256]⟩
abbrev SOut : Shape := ⟨2, ![8192, 8192]⟩

/-- The two float words both programs spell: `+0.0` and `2.0`. -/
abbrev zeroW : EReal := Ideal.ofBits .f32 0x00000000#32
abbrev twoW : EReal := Ideal.ofBits .f32 0x40000000#32

/-- `+0.0` denotes 0. -/
theorem zeroW_eq : zeroW = 0 := by
  simp [zeroW, Ideal.ofBits, Ideal.ieee]

/-- `2.0` denotes the real number 2. -/
theorem twoW_eq : twoW = ((2 : ℝ) : EReal) := by
  simp [twoW, Ideal.ofBits, Ideal.ieee, -EReal.coe_mul]; norm_num

/-- The squared norm of row `i`, summed from the zero word. -/
def sqn (a : SIn.Idx → EReal) (i : Fin 8192) : EReal := zeroW + ∑ k : Fin 256, a (ix2 i k) * a (ix2 i k)

/-- The inner product of rows `i` and `j`. -/
def gram (a : SIn.Idx → EReal) (i j : Fin 8192) : EReal := ∑ k : Fin 256, a (ix2 i k) * a (ix2 j k)

/-- The distance between rows `i` and `j`, through the squared norms and the inner product. -/
def dist (a : SIn.Idx → EReal) (i j : Fin 8192) : EReal :=
  Ideal.sqrt (max ((sqn a i + sqn a j) - twoW * gram a i j) zeroW)

/-- The same with the entries on the diagonal set to the zero word. -/
def distZeroDiag (a : SIn.Idx → EReal) (i j : Fin 8192) : EReal := if i = j then zeroW else dist a i j

/-- A finite sum of reals, coerced, is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- A finite row's distance to itself is zero: s + s - 2 s = 0 in the reals, and sqrt (max 0 0) = 0. -/
theorem dist_self (a : SIn.Idx → EReal) (ha : ∀ x, ∃ r : ℝ, a x = (r : EReal)) (i : Fin 8192) : dist a i i = zeroW := by
  choose f hf using ha
  have hs : ∑ k : Fin 256, a (ix2 i k) * a (ix2 i k) = ((∑ k : Fin 256, f (ix2 i k) * f (ix2 i k) : ℝ) : EReal) := by
    rw [coe_sum]; exact Finset.sum_congr rfl fun k _ => by rw [hf, EReal.coe_mul]
  unfold dist sqn gram
  rw [hs, zeroW_eq, twoW_eq, zero_add]
  generalize (∑ k : Fin 256, f (ix2 i k) * f (ix2 i k) : ℝ) = s
  rw [← EReal.coe_add, ← EReal.coe_mul, ← EReal.coe_sub, show s + s - 2 * s = 0 by ring, EReal.coe_zero, max_self,
    ← EReal.coe_zero, Ideal.sqrt_coe, if_neg (lt_irrefl 0), Real.sqrt_zero]

/-- So for a finite matrix zeroing the diagonal changes nothing. -/
theorem distZeroDiag_eq (a : SIn.Idx → EReal) (ha : ∀ x, ∃ r : ℝ, a x = (r : EReal)) (i j : Fin 8192) :
    distZeroDiag a i j = dist a i j := by
  unfold distZeroDiag
  split
  · next h => subst h; exact (dist_self a ha i).symm
  · rfl

end Cert.Dist

end
-- ==== Proof.KIPayload.lean ====
/-
  The distance kernel's two payloads read at an index, at the extended reals. The first, at local row p and
  local column q of the tile: sqrt (max ((c_p + r_q) - 2 * sum_k x_pk y_qk, 0)), with c the column block of
  squared norms, r the row block, x and y the two row blocks of the matrix (the matrix unit's product into a
  zero accumulator is the plain sum). The second: zero where p = q, its operand elsewhere (the two iotas read
  the two coordinates, and coordinates below 1024 are equal as 32-bit words exactly when they are equal).
-/
import proofs.«140708_j38259568672963_2_alg».proof.Proof.Gen.KernelIdeal.Skeleton
import proofs.«140708_j38259568672963_2_alg».proof.Proof.DistSpec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen

/-! ## The matrix unit's product -/

theorem lhs0 (i : S1024x1024.Idx) (q : dot_S1024x256_S1024x256_S1024x1024_1_1_0_0_n_n.contr.Idx) : (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs1 (i : S1024x1024.Idx) (q : dot_S1024x256_S1024x256_S1024x1024_1_1_0_0_n_n.contr.Idx) : (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs0 (i : S1024x1024.Idx) (q : dot_S1024x256_S1024x256_S1024x1024_1_1_0_0_n_n.contr.Idx) : (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs1 (i : S1024x1024.Idx) (q : dot_S1024x256_S1024x256_S1024x1024_1_1_0_0_n_n.contr.Idx) : (dot_S1024x256_S1024x256_S1024x1024_1_1_0_0_n_n.rhsIdx i q 1).val = (q ⟨0, by decide⟩).val :=
  dot_S1024x256_S1024x256_S1024x1024_1_1_0_0_n_n.rhsIdx_val_of_single rfl i q

/-- Rows p of the left block and q of the right block, multiplied column by column and summed. -/
theorem gram_apply (l r : FVec Ideal S1024x256 .bf16) (p q : Fin 1024) :
    FloatOps.matmul (F := Ideal) dot_S1024x256_S1024x256_S1024x1024_1_1_0_0_n_n none l r (constant (F := Ideal) S1024x1024 .f32 0x00000000#32) (ix2 p q)
      = ∑ k : Fin 256, l (ix2 p k) * r (ix2 q k) := by
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs0 _ _
    | ⟨1, _⟩ => exact (lhs1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs0 _ _
    | ⟨1, _⟩ => exact (rhs1 _ _).trans hk)
  rw [el, er]

/-! ## The two keepdims broadcasts -/

/-- A column [1024, 1] broadcast along the lanes reads its row. -/
theorem col_apply (x : FVec Ideal S1024x1 .f32) (p q : Fin 1024) :
    broadcastTo S1024x1024 x Facts₀.broadcasts_S1024x1_S1024x1024 (ix2 p q) = x (ix2 p 0) :=
  broadcastTo_apply x _ (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row [1, 1024] broadcast along the sublanes reads its column. -/
theorem row_apply (x : FVec Ideal S1x1024 .f32) (p q : Fin 1024) :
    broadcastTo S1024x1024 x Facts₀.broadcasts_S1x1024_S1024x1024 (ix2 p q) = x (ix2 0 q) :=
  broadcastTo_apply x _ (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The payloads -/

/-- The tile of distances at local row p and local column q. -/
theorem pay1_apply (x0 x1 : Vec Ideal S1024x256 .bf16) (x2 : Vec Ideal S1024x1 .f32) (x3 : Vec Ideal S1x1024 .f32) (p q : Fin 1024) :
    k0_pay1 (F := Ideal) x0 x1 x2 x3 (ix2 p q)
      = Ideal.sqrt (max ((x2 (ix2 p 0) + x3 (ix2 0 q)) - Cert.Dist.twoW * ∑ k : Fin 256, x0 (ix2 p k) * x1 (ix2 q k)) Cert.Dist.zeroW) := by
  unfold k0_pay1
  simp only [shapeCast_self]
  show Ideal.sqrt (max ((broadcastTo S1024x1024 x2 Facts₀.broadcasts_S1024x1_S1024x1024 (ix2 p q)
      + broadcastTo S1024x1024 x3 Facts₀.broadcasts_S1x1024_S1024x1024 (ix2 p q))
      - Ideal.ofBits .f32 0x40000000#32 * FloatOps.matmul (F := Ideal) dot_S1024x256_S1024x256_S1024x1024_1_1_0_0_n_n none x0 x1 (constant (F := Ideal) S1024x1024 .f32 0x00000000#32) (ix2 p q))
      (Ideal.ofBits .f32 0x00000000#32)) = _
  rw [col_apply, row_apply, gram_apply]

/-- Two coordinates below 1024 are equal as 32-bit words exactly when they are equal. -/
theorem cmp_coords (p q : Fin 1024) : IntOp.cmpi .eq (BitVec.ofNat 32 p.val) (BitVec.ofNat 32 q.val) = if p = q then 1#1 else 0#1 := by
  show BitVec.ofBool (BitVec.ofNat 32 p.val == BitVec.ofNat 32 q.val) = _
  by_cases h : p = q
  · subst h; rw [if_pos rfl, beq_self_eq_true]; rfl
  · have hne : BitVec.ofNat 32 p.val ≠ BitVec.ofNat 32 q.val := fun e => h (Fin.ext (by
      have := congrArg BitVec.toNat e
      simp only [BitVec.toNat_ofNat] at this
      rwa [Nat.mod_eq_of_lt (lt_of_lt_of_le p.isLt (by norm_num)), Nat.mod_eq_of_lt (lt_of_lt_of_le q.isLt (by norm_num))] at this))
    rw [if_neg h, beq_eq_false_iff_ne.mpr hne]; rfl

/-- The tile with its diagonal zeroed. -/
theorem pay2_apply (v : Vec Ideal S1024x1024 .f32) (p q : Fin 1024) :
    k0_pay2 (F := Ideal) v (ix2 p q) = if p = q then Cert.Dist.zeroW else v (ix2 p q) := by
  unfold k0_pay2
  simp only [shapeCast_self]
  show Scalar.select (IntOp.cmpi .eq (iota .tc S1024x1024 32 [0] Facts₀.iota_S1024x1024_d0_w32 (ix2 p q)) (iota .tc S1024x1024 32 [1] Facts₀.iota_S1024x1024_d1_w32 (ix2 p q)))
      (Ideal.ofBits .f32 0x00000000#32) (v (ix2 p q)) = _
  rw [iota_single_apply, iota_single_apply]
  show Scalar.select (IntOp.cmpi .eq (BitVec.ofNat 32 p.val) (BitVec.ofNat 32 q.val)) _ _ = _
  rw [cmp_coords]
  split
  · exact select_one _ _
  · exact select_zero _ _

end Cert.KernelIdeal.HandValue

end
-- ==== Proof.RefRowSums.lean ====
/-
  The keepdims copies of the row sums read at an entry: the column copy at row r, and the row copy at
  column r, are the squared norm of row r of the matrix.
-/
import proofs.«140708_j38259568672963_2_alg».proof.Proof.Gen.ReferenceIdeal.Read
import proofs.«140708_j38259568672963_2_alg».proof.Proof.DistSpec

noncomputable section

namespace Cert.ReferenceIdeal.RefValue

open Idealize.ShloMosaic Idealize.ShloMosaic.ValueIdx Cert.ReferenceIdeal Cert.ReferenceIdeal.Read

theorem col_sq (x0 : (⟨S8192x256, .f32⟩ : BufTy).Contents (Elt Ideal)) (r : Fin 8192) :
    val_main_v4 (F := Ideal) x0 (ix2 r (0 : Fin 1)) = Cert.Dist.sqn x0 r := by
  have e : ∀ k, idx_main_v1 (idx_main_v4 (ix2 r (0 : Fin 1))) k = ix2 r k := fun k =>
    funext fun a => by match a with | ⟨0, _⟩ => rfl | ⟨1, _⟩ => rfl
  rw [val_main_v4_apply, val_main_v1_apply]
  simp only [e, val_main_v0_apply, val_main_cst_apply, Ideal.mulf_def, Ideal.ofBits_def]
  rfl

theorem row_sq (x0 : (⟨S8192x256, .f32⟩ : BufTy).Contents (Elt Ideal)) (r : Fin 8192) :
    val_main_v5 (F := Ideal) x0 (ix2 (0 : Fin 1) r) = Cert.Dist.sqn x0 r := by
  have e : ∀ k, idx_main_v1 (idx_main_v5 (ix2 (0 : Fin 1) r)) k = ix2 r k := fun k =>
    funext fun a => by match a with | ⟨0, _⟩ => rfl | ⟨1, _⟩ => rfl
  rw [val_main_v5_apply, val_main_v1_apply]
  simp only [e, val_main_v0_apply, val_main_cst_apply, Ideal.mulf_def, Ideal.ofBits_def]
  rfl

end Cert.ReferenceIdeal.RefValue

end
-- ==== Proof.KITile.lean ====
/-
  The distance kernel's tiles at the extended reals. Tile (I, J) of the result is computed from rows
  I*1024 .. of the matrix (and their squared norms) against rows J*1024 ..; its entry at local row p and local
  column q is the distance between rows I*1024 + p and J*1024 + q, zeroed on a diagonal tile where p = q —
  that is, where the two row numbers are equal.
-/
import proofs.«140708_j38259568672963_2_alg».proof.Proof.KIOut
import proofs.«140708_j38259568672963_2_alg».proof.Proof.KILaunch
import proofs.«140708_j38259568672963_2_alg».proof.Proof.KIPayload
import proofs.«140708_j38259568672963_2_alg».proof.Proof.RefRowSums

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-- The matrix on core `c`, as launched. -/
abbrev mat (c : Dev nD) : Cert.Dist.SIn.Idx → EReal := m ((c : Thread nD τ).loc main_arg0)

/-- Row `I*1024 + p` of the matrix: local row `p` of row block `I`. -/
def rowOf (I : ℕ) (hI : I < 8) (p : Fin 1024) : Fin 8192 := ⟨I * 1024 + p.val, by have := p.isLt; omega⟩

/-! ## The arrays the input windows read, as the region finds them -/

/-- The narrowed copy of the matrix is the matrix (a change of format is the identity). -/
theorem V_v4 (c : Dev nD) : (V m c main_call0_v4 : S8192x256.Idx → EReal) = mat m c := by
  dsimp only [V, hostOps0]; after_results; rfl

/-- The column copy of the row sums. -/
theorem V_v2 (c : Dev nD) : (V m c main_call0_v2 : S8192x1.Idx → EReal) = Cert.ReferenceIdeal.Read.val_main_v4 (F := Ideal) (mat m c) := by
  dsimp only [V, hostOps0]; after_results; rfl

/-- The row copy of the row sums. -/
theorem V_v3 (c : Dev nD) : (V m c main_call0_v3 : S1x8192.Idx → EReal) = Cert.ReferenceIdeal.Read.val_main_v5 (F := Ideal) (mat m c) := by
  dsimp only [V, hostOps0]; after_results; rfl

/-! ## The windows' blocks -/

/-- The printed index maps over the 64 points in row-major order: the row windows move with the point's
    quotient by 8, the column windows with its remainder. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8 :=
  (by decide +kernel : ∀ t : Fin grid0.N, _)

theorem lt64 (t : Fin cfg0.N) : t.val < 64 := lt_of_lt_of_eq t.isLt (show cfg0.N = 64 from N_0)

/-- The row block of the matrix at point `t`. -/
theorem blk0_apply (c : Dev nD) (t : Fin cfg0.N) (p : Fin 1024) (k : Fin 256) :
    iblk m c 0 t (ix2 p k) = mat m c (ix2 (rowOf (t.val / 8) (by have := lt64 t; omega) p) k) := by
  unfold iblk
  show V m c main_call0_v4 (((cfg0.win 0).blk t).view.emb (ix2 p k)) = _
  rw [V_v4]
  obtain ⟨e0, e1, -⟩ := idx_facts t
  refine congrArg (mat m c) (funext fun a => Fin.ext ?_)
  match a with
  | ⟨0, _⟩ => show win0_0.index t (0 : Fin 2) * 1024 + 1 * p.val = t.val / 8 * 1024 + p.val; rw [e0]; omega
  | ⟨1, _⟩ => show win0_0.index t (1 : Fin 2) * 256 + 1 * k.val = k.val; rw [e1]; omega

/-- The column block of the matrix at point `t`. -/
theorem blk1_apply (c : Dev nD) (t : Fin cfg0.N) (q : Fin 1024) (k : Fin 256) :
    iblk m c 1 t (ix2 q k) = mat m c (ix2 (rowOf (t.val % 8) (by omega) q) k) := by
  unfold iblk
  show V m c main_call0_v4 (((cfg0.win 1).blk t).view.emb (ix2 q k)) = _
  rw [V_v4]
  obtain ⟨-, -, e0, e1, -⟩ := idx_facts t
  refine congrArg (mat m c) (funext fun a => Fin.ext ?_)
  match a with
  | ⟨0, _⟩ => show win0_1.index t (0 : Fin 2) * 1024 + 1 * q.val = t.val % 8 * 1024 + q.val; rw [e0]; omega
  | ⟨1, _⟩ => show win0_1.index t (1 : Fin 2) * 256 + 1 * k.val = k.val; rw [e1]; omega

/-- The column block of squared norms at point `t`. -/
theorem blk2_apply (c : Dev nD) (t : Fin cfg0.N) (p : Fin 1024) :
    iblk m c 2 t (ix2 p (0 : Fin 1)) = Cert.Dist.sqn (mat m c) (rowOf (t.val / 8) (by have := lt64 t; omega) p) := by
  unfold iblk
  show V m c main_call0_v2 (((cfg0.win 2).blk t).view.emb (ix2 p (0 : Fin 1))) = _
  rw [V_v2, ← Cert.ReferenceIdeal.RefValue.col_sq]
  obtain ⟨-, -, -, -, e0, e1, -⟩ := idx_facts t
  refine congrArg (Cert.ReferenceIdeal.Read.val_main_v4 (F := Ideal) (mat m c)) (funext fun a => Fin.ext ?_)
  match a with
  | ⟨0, _⟩ => show win0_2.index t (0 : Fin 2) * 1024 + 1 * p.val = t.val / 8 * 1024 + p.val; rw [e0]; omega
  | ⟨1, _⟩ => show win0_2.index t (1 : Fin 2) * 1 + 1 * 0 = 0; rw [e1]

/-- The row block of squared norms at point `t`. -/
theorem blk3_apply (c : Dev nD) (t : Fin cfg0.N) (q : Fin 1024) :
    iblk m c 3 t (ix2 (0 : Fin 1) q) = Cert.Dist.sqn (mat m c) (rowOf (t.val % 8) (by omega) q) := by
  unfold iblk
  show V m c main_call0_v3 (((cfg0.win 3).blk t).view.emb (ix2 (0 : Fin 1) q)) = _
  rw [V_v3, ← Cert.ReferenceIdeal.RefValue.row_sq]
  obtain ⟨-, -, -, -, -, -, e0, e1, -⟩ := idx_facts t
  refine congrArg (Cert.ReferenceIdeal.Read.val_main_v5 (F := Ideal) (mat m c)) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = t.val % 8 * 1024 + q.val; rw [e1]; omega

/-! ## One tile -/

/-- Tile (I, J) from its four blocks: the distances between rows I*1024 + p and J*1024 + q, the diagonal
    zeroed when I = J — where then p = q exactly when the two rows are one. -/
theorem tile_eq (a : Cert.Dist.SIn.Idx → EReal) (I J : ℕ) (hI : I < 8) (hJ : J < 8)
    (x0 x1 : Vec Ideal S1024x256 .bf16) (x2 : Vec Ideal S1024x1 .f32) (x3 : Vec Ideal S1x1024 .f32)
    (h0 : ∀ p k, x0 (ix2 p k) = a (ix2 (rowOf I hI p) k)) (h1 : ∀ q k, x1 (ix2 q k) = a (ix2 (rowOf J hJ q) k))
    (h2 : ∀ p, x2 (ix2 p (0 : Fin 1)) = Cert.Dist.sqn a (rowOf I hI p)) (h3 : ∀ q, x3 (ix2 (0 : Fin 1) q) = Cert.Dist.sqn a (rowOf J hJ q))
    (y : S1024x1024.Idx) :
    (if I = J then k0_pay2 (F := Ideal) (k0_pay1 x0 x1 x2 x3) else k0_pay1 x0 x1 x2 x3) y
      = Cert.Dist.distZeroDiag a (rowOf I hI (y 0)) (rowOf J hJ (y 1)) := by
  obtain ⟨p, q, rfl⟩ : ∃ (p q : Fin 1024), y = ix2 p q := ⟨y 0, y 1, eq_ix2 y⟩
  have hd : k0_pay1 (F := Ideal) x0 x1 x2 x3 (ix2 p q) = Cert.Dist.dist a (rowOf I hI p) (rowOf J hJ q) := by
    rw [pay1_apply]
    simp only [h0, h1, h2, h3]
    rfl
  show _ = Cert.Dist.distZeroDiag a (rowOf I hI p) (rowOf J hJ q)
  unfold Cert.Dist.distZeroDiag
  by_cases hIJ : I = J
  · subst hIJ
    rw [if_pos rfl, pay2_apply, hd]
    by_cases hpq : p = q
    · subst hpq; rw [if_pos rfl, if_pos rfl]
    · rw [if_neg hpq, if_neg (fun e => hpq (Fin.ext (by have := congrArg Fin.val e; simp only [rowOf] at this; omega)))]
  · rw [if_neg hIJ, hd, if_neg (fun e => hIJ (by
      have := congrArg Fin.val e; simp only [rowOf] at this; have := p.isLt; have := q.isLt; omega))]

end Cert.KernelIdeal.HandValue

end
-- ==== Proof.KIArray.lean ====
/-
  The distance kernel's result array at the extended reals: the 64 tiles cover the array, each point writes
  back its tile of the distances with the diagonal zeroed, so that is what the array ends holding.
-/
import proofs.«140708_j38259568672963_2_alg».proof.Proof.KITile

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-! ## From the tiles to the array -/

/-- What the result array ends holding: the distances with the diagonal zeroed. -/
abbrev G (a : Cert.Dist.SIn.Idx → EReal) : S8192x8192.Idx → EReal := fun i => Cert.Dist.distZeroDiag a (i 0) (i 1)

/-- What point `t` writes back: the case's payload of the four blocks (an uncut block is written back whole). -/
theorem flushed_tile (c : Dev nD) (t : Fin cfg0.N) :
    (dats m 0 c).flushed 4 t = (if t.val / 8 = t.val % 8 then k0_pay2 (F := Ideal) (k0_pay1 (iblk m c 0 t) (iblk m c 1 t) (iblk m c 2 t) (iblk m c 3 t)) else k0_pay1 (iblk m c 0 t) (iblk m c 1 t) (iblk m c 2 t) (iblk m c 3 t)) := by
  show (cfg0.win 4).cut (grid0.coords t) ((dats m 0 c).after 4 t) = _
  rw [after4, outAt_eq]
  rfl

/-- That tile, entry by entry, from the blocks of point `t`. -/
theorem tile_at (c : Dev nD) (t : Fin cfg0.N) (y : S1024x1024.Idx) :
    (if t.val / 8 = t.val % 8 then k0_pay2 (F := Ideal) (k0_pay1 (iblk m c 0 t) (iblk m c 1 t) (iblk m c 2 t) (iblk m c 3 t)) else k0_pay1 (iblk m c 0 t) (iblk m c 1 t) (iblk m c 2 t) (iblk m c 3 t)) y
      = Cert.Dist.distZeroDiag (mat m c) (rowOf (t.val / 8) (by have := lt64 t; omega) (y 0)) (rowOf (t.val % 8) (by omega) (y 1)) :=
  tile_eq (mat m c) (t.val / 8) (t.val % 8) (by have := lt64 t; omega) (by omega) (iblk m c 0 t) (iblk m c 1 t) (iblk m c 2 t) (iblk m c 3 t)
    (blk0_apply m c t) (blk1_apply m c t) (blk2_apply m c t) (blk3_apply m c t) y

/-- Where the tile's entry sits in the array: local row and column offset by the tile's block indices. -/
theorem tile_in_array (c : Dev nD) (t : Fin cfg0.N) (y : S1024x1024.Idx) :
    Cert.Dist.distZeroDiag (mat m c) (rowOf (t.val / 8) (by have := lt64 t; omega) (y 0)) (rowOf (t.val % 8) (by omega) (y 1))
      = ((cfg0.win 4).blk t).view.read (Elt Ideal) (G (mat m c)) y := by
  obtain ⟨-, -, -, -, -, -, -, -, e0, e1⟩ := idx_facts t
  have hN := lt64 t
  show _ = Cert.Dist.distZeroDiag (mat m c) ((((cfg0.win 4).blk t).view.emb y) 0) ((((cfg0.win 4).blk t).view.emb y) 1)
  refine congrArg₂ (Cert.Dist.distZeroDiag (mat m c)) (Fin.ext ?_) (Fin.ext ?_)
  · show t.val / 8 * 1024 + (y 0).val = win0_4.index t (0 : Fin 2) * 1024 + 1 * (y 0).val
    rw [e0]; omega
  · show t.val % 8 * 1024 + (y 1).val = win0_4.index t (1 : Fin 2) * 1024 + 1 * (y 1).val
    rw [e1]; omega

/-- What point `t` writes back is tile `t` of `G` of the matrix. -/
theorem flushed_eq (c : Dev nD) (t : Fin cfg0.N) :
    (dats m 0 c).flushed 4 t = ((cfg0.win 4).blk t).view.read (Elt Ideal) (G (mat m c)) :=
  (flushed_tile m c t).trans (funext fun y => (tile_at m c t y).trans (tile_in_array m c t y))

/-- An index of the array is in point `t`'s tile iff each coordinate is in the tile's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every index is in the tile of the point whose coordinates are its row and column divided by 1024. -/
theorem cover (i : S8192x8192.Idx) : ∃ t : Fin cfg0.N, (cfg0.win 4).flush t = true ∧ i ∈ ((cfg0.win 4).blk t).view.set := by
  have h0 : (i 0).val < 8192 := (i 0).isLt
  have h1 : (i 1).val < 8192 := (i 1).isLt
  have hlt : (i 0).val / 1024 * 8 + (i 1).val / 1024 < cfg0.N := lt_of_lt_of_eq (by omega : _ < 64) (show cfg0.N = 64 from N_0).symm
  refine ⟨⟨(i 0).val / 1024 * 8 + (i 1).val / 1024, hlt⟩, flush0_4 _, ?_⟩
  rw [mem_blk]
  obtain ⟨-, -, -, -, -, -, -, -, e0, e1⟩ := idx_facts ⟨(i 0).val / 1024 * 8 + (i 1).val / 1024, hlt⟩
  intro a
  match a with
  | ⟨0, _⟩ =>
    show win0_4.index ⟨(i 0).val / 1024 * 8 + (i 1).val / 1024, hlt⟩ (0 : Fin 2) * 1024 ≤ (i 0).val ∧ (i 0).val < win0_4.index ⟨(i 0).val / 1024 * 8 + (i 1).val / 1024, hlt⟩ (0 : Fin 2) * 1024 + 1024
    rw [e0]; dsimp only; omega
  | ⟨1, _⟩ =>
    show win0_4.index ⟨(i 0).val / 1024 * 8 + (i 1).val / 1024, hlt⟩ (1 : Fin 2) * 1024 ≤ (i 1).val ∧ (i 1).val < win0_4.index ⟨(i 0).val / 1024 * 8 + (i 1).val / 1024, hlt⟩ (1 : Fin 2) * 1024 + 1024
    rw [e1]; dsimp only; omega

/-- The result array after the run. -/
theorem final (c : Dev nD) : (dats m 0 c).arrAt 4 cfg0.N = G (mat m c) :=
  (dats m 0 c).arrAt_eq_of_cover 4 (G (mat m c)) (fun t _ => flushed_eq m c t) cover

/-- The run, read: the result array holds the distances with the diagonal zeroed, the matrix is unchanged. -/
theorem run : θ_run defs (onTc (τ := τ) (main (F := Ideal))) ⟨m, fun _ => 0, ρ⟩ fun r => ∀ c : Dev nD,
      r.2.mem ((c : Thread nD τ).loc main_v0) = G (mat m c)
      ∧ r.2.mem ((c : Thread nD τ).loc main_arg0) = m ((c : Thread nD τ).loc main_arg0) :=
  (θ_run defs _ _).mono (fun r h c => ⟨((h c).1 4).trans (final m c),
      ((h c).2 main_arg0 (Pipeline.mem_restRefs_of main_arg0 rfl (by decide))).trans (V_main_arg0 m c)⟩)
    (run_main m ρ)

end Cert.KernelIdeal.HandValue

end
-- ==== Proof.RefIsDist.lean ====
/-
  The reference, read one operation at a time at the extended reals, is the distance function: at row i and
  column j the two broadcasts of the row sums read rows i and j, the product with the transposed matrix reads
  rows i and j of the matrix column by column, and the rest is pointwise.
-/
import proofs.«140708_j38259568672963_2_alg».proof.Proof.Gen.ReferenceIdeal.Read
import proofs.«140708_j38259568672963_2_alg».proof.Proof.DistSpec

noncomputable section

namespace Cert.ReferenceIdeal.RefValue

open Idealize.ShloMosaic Idealize.ShloMosaic.ValueIdx Cert.ReferenceIdeal Cert.ReferenceIdeal.Read

/-- The reference's last stage is `dist` of its argument, index by index. -/
theorem ref_is_dist (x0 : (⟨S8192x256, .f32⟩ : BufTy).Contents (Elt Ideal)) :
    val_main_v14 (F := Ideal) x0 = fun i => Cert.Dist.dist x0 (i 0) (i 1) := by
  funext i
  have e1 : ∀ k, idx_main_v1 (idx_main_v4 (idx_main_v6 i)) k = ix2 (i 0) k := fun k =>
    funext fun a => by match a with | ⟨0, _⟩ => rfl | ⟨1, _⟩ => rfl
  have e2 : ∀ k, idx_main_v1 (idx_main_v5 (idx_main_v7 i)) k = ix2 (i 1) k := fun k =>
    funext fun a => by match a with | ⟨0, _⟩ => rfl | ⟨1, _⟩ => rfl
  have e3 : ∀ k, lidx_main_v3 i k = ix2 (i 0) k := fun k =>
    funext fun a => by match a with | ⟨0, _⟩ => rfl | ⟨1, _⟩ => rfl
  have e4 : ∀ k, idx_main_v2 (ridx_main_v3 i k) = ix2 (i 1) k := fun k =>
    funext fun a => by match a with | ⟨0, _⟩ => rfl | ⟨1, _⟩ => rfl
  rw [val_main_v14_apply, val_main_v13_apply, val_main_v11_apply, val_main_v8_apply, val_main_v6_apply, val_main_v4_apply,
    val_main_v1_apply, val_main_v7_apply, val_main_v5_apply, val_main_v1_apply, val_main_v10_apply, val_main_v9_apply,
    val_main_cst_0_apply, val_main_v3_apply, val_main_v12_apply, val_main_cst_1_apply]
  simp only [e1, e2, e3, e4, val_main_v2_apply, val_main_v0_apply, val_main_cst_apply, Ideal.mulf_def, Ideal.addf_def, Ideal.subf_def,
    Ideal.maximumf_def, Ideal.hostUnary_sqrt_def, Ideal.ofBits_def]
  rfl

end Cert.ReferenceIdeal.RefValue

end
-- ==== Proof.Finite.lean ====
/-
  The precondition read back: it is an "all" over the matrix of |x| < +inf, so when it holds every entry of
  the matrix is a real number (|x| = max x (-x) is +inf at either infinity).
-/
import proofs.«140708_j38259568672963_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Decode

open Idealize.ShloMosaic Cert.Pre_finite_inputs

instance : Subsingleton S_.Idx := ⟨fun a b => funext fun d => d.elim0⟩

/-- The word `0x7F800000` denotes +inf. -/
theorem inf_word : Ideal.ofBits .f32 0x7F800000#32 = (⊤ : EReal) := by
  simp [Ideal.ofBits, Ideal.ieee]

/-- An extended real whose absolute value is below +inf is a real. -/
theorem real_of_abs_lt_top (v : EReal) (h : max v (-v) < (⊤ : EReal)) : ∃ r : ℝ, v = (r : EReal) := by
  induction v using EReal.rec with
  | bot => simp at h
  | top => simp at h
  | coe r => exact ⟨r, rfl⟩

/-- Under the precondition every entry of the matrix is a real. -/
theorem finite_of_pre [Facts] (x : FVec Ideal S8192x256 .f32) (h : fn (F := Ideal) x = fun _ => 1#1) (i : S8192x256.Idx) :
    ∃ r : ℝ, x i = (r : EReal) := by
  have h0 := congrFun h ValueIdx.ix0
  dsimp only [fn] at h0
  have hi := Host.reduce_andi_all _ _ _ _ _ h0 i
  have hc : Ideal.cmp .olt (max (x i) (-(x i))) (Ideal.ofBits .f32 0x7F800000#32) = 1#1 := hi
  rw [inf_word] at hc
  refine real_of_abs_lt_top (x i) ?_
  by_contra hn
  have : Ideal.cmp .olt (max (x i) (-(x i))) (⊤ : EReal) = 0#1 := by
    show BitVec.ofBool (decide (max (x i) (-(x i)) < (⊤ : EReal))) = 0#1
    rw [decide_eq_false hn]; rfl
  rw [this] at hc
  exact absurd hc (by decide)

end Cert.Pre_finite_inputs.Decode

end
-- ==== Proof.lean ====
/-
  Pairwise Euclidean distances of the rows of an 8192 x 256 matrix: a tiled kernel (8 x 8 tiles of
  1024 x 1024, the diagonal tiles' diagonals overwritten by zero) against the plain formula
  sqrt (max (|a_i|^2 + |a_j|^2 - 2 <a_i, a_j>, 0)).
  The three programs run to the end without fault and leave the matrix unchanged; no rewrite was applied in
  idealizing the kernel; and at the extended reals the kernel's result is the formula's at every index: off the
  diagonal the two are one term, and on the diagonal the formula gives 0 for a finite matrix.
-/
import proofs.«140708_j38259568672963_2_alg».proof.Defs
import proofs.«140708_j38259568672963_2_alg».proof.Proof.KBLaunch
import proofs.«140708_j38259568672963_2_alg».proof.Proof.KILaunch
import proofs.«140708_j38259568672963_2_alg».proof.Proof.KIArray
import proofs.«140708_j38259568672963_2_alg».proof.Proof.RefIsDist
import proofs.«140708_j38259568672963_2_alg».proof.Proof.Finite
import proofs.«140708_j38259568672963_2_alg».proof.Proof.Gen.ReferenceIdeal.Run
import proofs.«140708_j38259568672963_2_alg».proof.Proof.Gen.Pre_finite_inputs

noncomputable section

namespace Cert.Proof

open Idealize.ShloMosaic Idealize.SL.Sem

/-- The word-level kernel runs and leaves its argument as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the kernel read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the matrix: the kernel's result array ends at the distances with the diagonal
    zeroed, the reference's at the distances; the matrix is finite by the precondition, so the two are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.HandValue.G (Cert.KernelIdeal.HandValue.mat m c), Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_is_dist, hagree c]
  funext i
  exact (Cert.Dist.distZeroDiag_eq _ (fun x => Cert.Pre_finite_inputs.Decode.finite_of_pre _ (hpre c) x) (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
